-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S64x64 : Shape := ⟨2, ![64, 64]⟩
abbrev S5x64 : Shape := ⟨2, ![5, 64]⟩
abbrev S5 : Shape := ⟨1, ![5]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S5x64 : S_.BroadcastsInDim S5x64 (![] : Fin 0 → Fin S5x64.rank)
  reducesTo_S5x64_S_d0_1 : S5x64.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S5x64 .f32) (main_arg9 : FVec F S5 .f32) (main_v33 : IVec S_ 1) : IVec S_ 1 :=
  let main_v34 : FVec F S5x64 .f32 := Host.absf main_arg8
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S5x64 .f32) (main_arg9 : FVec F S5 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S64x32 .f32) (main_arg3 : FVec F S64 .f32) (main_arg4 : FVec F S64x32 .f32) (main_arg5 : FVec F S64x64 .f32) (main_arg6 : FVec F S64 .f32) (main_arg7 : FVec F S64x64 .f32) (main_arg8 : FVec F S5x64 .f32) (main_arg9 : FVec F S5 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S64x64 : Shape := ⟨2, ![64, 64]⟩
abbrev S5x64 : Shape := ⟨2, ![5, 64]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S10000x32 : Shape := ⟨2, ![10000, 32]⟩
abbrev S10000x1 : Shape := ⟨2, ![10000, 1]⟩
abbrev S10000x64 : Shape := ⟨2, ![10000, 64]⟩
abbrev S32x64 : Shape := ⟨2, ![32, 64]⟩
abbrev S1600000x64 : Shape := ⟨2, ![1600000, 64]⟩
abbrev S1x5 : Shape := ⟨2, ![1, 5]⟩
abbrev S100000x5 : Shape := ⟨2, ![100000, 5]⟩
abbrev S10000x5 : Shape := ⟨2, ![10000, 5]⟩
abbrev S64x5 : Shape := ⟨2, ![64, 5]⟩

abbrev nBuf : Space → Nat
  | .hbm => 58
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S5x64, .f32⟩
  | .hbm, ⟨9, _⟩ => ⟨S5, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S1x5, .f32⟩
  | .hbm, ⟨57, _⟩ => ⟨S100000x5, .f32⟩
  | .local _ .vmem, ⟨0, _⟩ => ⟨S10000x32, .f32⟩
  | .local _ .vmem, ⟨1, _⟩ => ⟨S10000x32, .f32⟩
  | .local _ .vmem, ⟨2, _⟩ => ⟨S10000x1, .f32⟩
  | .local _ .vmem, ⟨3, _⟩ => ⟨S10000x1, .f32⟩
  | .local _ .vmem, ⟨4, _⟩ => ⟨S10000x32, .f32⟩
  | .local _ .vmem, ⟨5, _⟩ => ⟨S10000x32, .f32⟩
  | .local _ .vmem, ⟨6, _⟩ => ⟨S64x32, .f32⟩
  | .local _ .vmem, ⟨7, _⟩ => ⟨S1x64, .f32⟩
  | .local _ .vmem, ⟨8, _⟩ => ⟨S64x32, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5x64, .f32⟩
  | .local _ .vmem, ⟨21, _⟩ => ⟨S1x5, .f32⟩
  | .local _ .vmem, ⟨22, _⟩ => ⟨S10000x5, .f32⟩
  | .local _ .vmem, ⟨23, _⟩ => ⟨S10000x5, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x5 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x5 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x32 : S_.BroadcastsInDim S100000x32 (![] : Fin 0 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S5_S1x5 : S5.ShapeCasts S1x5
  shapeCasts_S10000x64_S10000x64 : S10000x64.ShapeCasts S10000x64
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S5x64_S5x64_0_0 : ∀ a, (![0, 0] : Fin 2 → Nat) a + S5x64.size a ≤ S5x64.size a
  h_S5x64 : 0 < S5x64.numel
  transposes_S5x64_p1_0_S64x5 : S5x64.Transposes [1, 0] S64x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x5_S10000x5_1_0_0_1_n_n_wf : DotDims.WF S10000x64 S64x5 S10000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5x64.size a ≤ S5x64.size a
  hwx1_6 : ∀ i : grid1.Coords, EltTy.bits .f32 = 32 ∨ (Rect.block (s := S5x64) S5x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x5.size a ≤ S1x5.size a
  hwx1_7 : ∀ i : grid1.Coords, EltTy.bits .f32 = 32 ∨ (Rect.block (s := S1x5) S1x5.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x5.size a ≤ S100000x5.size a
  hwx1_8 : ∀ i : grid1.Coords, EltTy.bits .f32 = 32 ∨ (Rect.block (s := S100000x5) S10000x5.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x5_S10000x5_1_0_0_1_n_n : DotDims S10000x64 S64x5 S10000x5 where
  lhsContracting := [1]
  rhsContracting := [0]
  lhsNonContracting := [0]
  rhsNonContracting := [1]
  lhsBatch := []
  rhsBatch := []
  wf := dot_S10000x64_S64x5_S10000x5_1_0_0_1_n_n_wf

abbrev win0_0 : Pipeline.Window sig grid0 :=
  Pipeline.Window.ofSpec (Memref.whole main_v22) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S5x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x5.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S10000x5.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S64x64 : Shape := ⟨2, ![64, 64]⟩
abbrev S5x64 : Shape := ⟨2, ![5, 64]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S32x64 : Shape := ⟨2, ![32, 64]⟩
abbrev S100000x64 : Shape := ⟨2, ![100000, 64]⟩
abbrev S1x64 : Shape := ⟨2, ![1, 64]⟩
abbrev S1600000x64 : Shape := ⟨2, ![1600000, 64]⟩
abbrev S64x5 : Shape := ⟨2, ![64, 5]⟩
abbrev S100000x5 : Shape := ⟨2, ![100000, 5]⟩
abbrev S1x5 : Shape := ⟨2, ![1, 5]⟩

abbrev nBuf : Space → Nat
  | .hbm => 91
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S5x64, .f32⟩
  | .hbm, ⟨9, _⟩ => ⟨S5, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S32x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S32x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x5, .f32⟩
  | .hbm, ⟨87, _⟩ => ⟨S100000x5, .f32⟩
  | .hbm, ⟨88, _⟩ => ⟨S1x5, .f32⟩
  | .hbm, ⟨89, _⟩ => ⟨S100000x5, .f32⟩
  | .hbm, ⟨90, _⟩ => ⟨S100000x5, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S5x64_S64x5_1_0 : S5x64.Transposes [1, 0] S64x5
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x5_S100000x5_1_0_0_1_n_n_wf : DotDims.WF S100000x64 S64x5 S100000x5 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x5_S100000x5_1_0_0_1_n_n : DotDims S100000x64 S64x5 S100000x5 where
  lhsContracting := [1]
  rhsContracting := [0]
  lhsNonContracting := [0]
  rhsNonContracting := [1]
  lhsBatch := []
  rhsBatch := []
  wf := dot_S100000x64_S64x5_S100000x5_1_0_0_1_n_n_wf

class Facts : Prop extends Facts₀ where

variable [Facts]
-- ==== Proof.KRun.lean ====
/-
  The idealized kernel program's run with its RESULT named: every weakly fair execution of @main ends with the
  result array holding what the second region's write-backs leave (the last boundary's contents at the result's
  buffer) and with the ten argument arrays as launched.
-/
import proofs.«121646_j80023830659433_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory, the last thread state read against the final state: the result's
    buffer and each argument's are among the unscoped buffers it holds at the last boundary's contents. -/
theorem run_value : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.Spec.lean ====
/-
  The mathematics shared by both programs: one mean-aggregation graph-convolution layer, read entry by entry
  on the extended reals, in the two arrangements the programs use, and the law that joins them.

  An output entry (row r, channel q) of a layer depends on row r of the aggregated neighbour sums `a`, the
  row's neighbour count, row r of the features `x`, and row q of each weight matrix:
    kernel's arrangement    max ((Σₖ (aₖ · s) · wlₖ  +  Σₖ xₖ · wrₖ)  +  b) 0      with s = 1 / max(cnt, 1)
    reference's arrangement max ((Σₖ (aₖ / c) · wlₖ  +  b)  +  Σₖ xₖ · wrₖ) 0      with c = max(cnt, 1).
  Since c ≥ 1 is never zero, a / c = a · c⁻¹ and 1 / c = c⁻¹ on every extended real (no finiteness is needed), and
  the two sums differ only by the order of three summands.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- The floor of the rectifier: the f32 zero word, the same literal in both programs (never evaluated). -/
abbrev Zr : EReal := Ideal.ofBits .f32 0x00000000#32
/-- The f32 word of 1.0: the dividend of the kernel's reciprocal and the floor of both programs' counts. -/
abbrev One : EReal := Ideal.ofBits .f32 0x3F800000#32

/-- A rank-2 array of extended reals. -/
abbrev Arr2 (n m : Nat) : Type := (⟨2, ![n, m]⟩ : Shape).Idx → EReal
/-- A rank-1 array of extended reals. -/
abbrev Arr1 (n : Nat) : Type := (⟨1, ![n]⟩ : Shape).Idx → EReal

variable {d : Nat}

/-- One entry of a layer as the kernel arranges it: the aggregated row scaled by the reciprocal count, both
    products summed, then the bias, then the rectifier. -/
def denseK (a : Fin d → EReal) (s : EReal) (x wl wr : Fin d → EReal) (b : EReal) : EReal :=
  max (((∑ k, (a k * s) * wl k) + ∑ k, x k * wr k) + b) Zr

/-- One entry of a layer as the reference arranges it: the aggregated row divided by the count, the first
    product plus the bias, then the second product, then the rectifier. -/
def denseR (a : Fin d → EReal) (c : EReal) (x wl wr : Fin d → EReal) (b : EReal) : EReal :=
  max (((∑ k, Ideal.div (a k) c * wl k) + b) + ∑ k, x k * wr k) Zr

theorem one_eq : One = 1 := Ideal.ofBits_one_f32

/-- A count floored at one is not zero. -/
theorem max_one_ne_zero (c : EReal) : max c One ≠ 0 := by
  rw [one_eq]
  exact ne_of_gt (lt_of_lt_of_le zero_lt_one (le_max_right c 1))

/-- Dividing by a nonzero extended real is multiplying by its inverse. -/
theorem div_of_ne {y : EReal} (hy : y ≠ 0) (x : EReal) : Ideal.div x y = x * y⁻¹ := by
  unfold Ideal.div; rw [if_neg hy]

/-- The reciprocal of a floored count is its inverse. -/
theorem recip_max (c : EReal) : Ideal.div One (max c One) = (max c One)⁻¹ := by
  rw [div_of_ne (max_one_ne_zero c), one_eq, one_mul]

/-- THE LAW: the kernel's entry at the reciprocal of a floored count is the reference's entry at that count. -/
theorem denseK_eq_denseR (a : Fin d → EReal) (c : EReal) (x wl wr : Fin d → EReal) (b : EReal) :
    denseK a (Ideal.div One (max c One)) x wl wr b = denseR a (max c One) x wl wr b := by
  unfold denseK denseR
  rw [recip_max]
  simp only [div_of_ne (max_one_ne_zero c)]
  rw [add_right_comm]

/-- One entry of the output projection: a hidden row against a row of the projection matrix, plus its bias. -/
def proj (h w : Fin d → EReal) (b : EReal) : EReal := (∑ k, h k * w k) + b

/-! ## The same, array by array -/

variable {n h o : Nat}

/-- A layer over `n` rows in the kernel's arrangement: `S` the column of reciprocal counts, `B` the bias as a row. -/
def layerK (A : Arr2 n d) (S : Arr2 n 1) (X : Arr2 n d) (Wl : Arr2 h d) (B : Arr2 1 h) (Wr : Arr2 h d) : Arr2 n h :=
  fun j => denseK (fun k => A (ix2 (j 0 : Fin n) k)) (S (ix2 (j 0 : Fin n) (0 : Fin 1))) (fun k => X (ix2 (j 0 : Fin n) k))
    (fun k => Wl (ix2 (j 1 : Fin h) k)) (fun k => Wr (ix2 (j 1 : Fin h) k)) (B (ix2 (0 : Fin 1) (j 1 : Fin h)))

/-- A layer over `n` rows in the reference's arrangement: `C` the floored counts, `B` the bias vector. -/
def layerR (A : Arr2 n d) (C : Arr1 n) (X : Arr2 n d) (Wl : Arr2 h d) (B : Arr1 h) (Wr : Arr2 h d) : Arr2 n h :=
  fun j => denseR (fun k => A (ix2 (j 0 : Fin n) k)) (C (ix1 (j 0 : Fin n))) (fun k => X (ix2 (j 0 : Fin n) k))
    (fun k => Wl (ix2 (j 1 : Fin h) k)) (fun k => Wr (ix2 (j 1 : Fin h) k)) (B (ix1 (j 1 : Fin h)))

/-- The output projection over `n` rows, the bias as a row (the kernel's spelling). -/
def projK (H : Arr2 n d) (W : Arr2 o d) (B : Arr2 1 o) : Arr2 n o :=
  fun j => proj (fun k => H (ix2 (j 0 : Fin n) k)) (fun k => W (ix2 (j 1 : Fin o) k)) (B (ix2 (0 : Fin 1) (j 1 : Fin o)))

/-- The output projection over `n` rows, the bias as a vector (the reference's spelling). -/
def projR (H : Arr2 n d) (W : Arr2 o d) (B : Arr1 o) : Arr2 n o :=
  fun j => proj (fun k => H (ix2 (j 0 : Fin n) k)) (fun k => W (ix2 (j 1 : Fin o) k)) (B (ix1 (j 1 : Fin o)))

theorem layerK_ix2 (A : Arr2 n d) (S : Arr2 n 1) (X : Arr2 n d) (Wl : Arr2 h d) (B : Arr2 1 h) (Wr : Arr2 h d)
    (r : Fin n) (q : Fin h) :
    layerK A S X Wl B Wr (ix2 r q) = denseK (fun k => A (ix2 r k)) (S (ix2 r (0 : Fin 1))) (fun k => X (ix2 r k))
      (fun k => Wl (ix2 q k)) (fun k => Wr (ix2 q k)) (B (ix2 (0 : Fin 1) q)) := rfl

theorem layerR_ix2 (A : Arr2 n d) (C : Arr1 n) (X : Arr2 n d) (Wl : Arr2 h d) (B : Arr1 h) (Wr : Arr2 h d)
    (r : Fin n) (q : Fin h) :
    layerR A C X Wl B Wr (ix2 r q) = denseR (fun k => A (ix2 r k)) (C (ix1 r)) (fun k => X (ix2 r k))
      (fun k => Wl (ix2 q k)) (fun k => Wr (ix2 q k)) (B (ix1 q)) := rfl

theorem projK_ix2 (H : Arr2 n d) (W : Arr2 o d) (B : Arr2 1 o) (r : Fin n) (q : Fin o) :
    projK H W B (ix2 r q) = proj (fun k => H (ix2 r k)) (fun k => W (ix2 q k)) (B (ix2 (0 : Fin 1) q)) := rfl

theorem projR_ix2 (H : Arr2 n d) (W : Arr2 o d) (B : Arr1 o) (r : Fin n) (q : Fin o) :
    projR H W B (ix2 r q) = proj (fun k => H (ix2 r k)) (fun k => W (ix2 q k)) (B (ix1 q)) := rfl

/-- The two arrangements of a layer are one array, when the kernel's column is the reciprocal of the floored
    count and its bias row is the bias vector. -/
theorem layerK_eq_layerR (A : Arr2 n d) (S : Arr2 n 1) (Cn : Arr1 n) (X : Arr2 n d) (Wl : Arr2 h d) (B2 : Arr2 1 h)
    (B1 : Arr1 h) (Wr : Arr2 h d)
    (hS : ∀ r : Fin n, S (ix2 r (0 : Fin 1)) = Ideal.div One (max (Cn (ix1 r)) One))
    (hB : ∀ q : Fin h, B2 (ix2 (0 : Fin 1) q) = B1 (ix1 q)) :
    layerK A S X Wl B2 Wr = layerR A (fun i => max (Cn i) One) X Wl B1 Wr := by
  funext j
  obtain ⟨r, q, rfl⟩ : ∃ (r : Fin n) (q : Fin h), j = ix2 r q := ⟨j 0, j 1, eq_ix2 j⟩
  rw [layerK_ix2, layerR_ix2, hS, hB, denseK_eq_denseR]

theorem projK_eq_projR (H : Arr2 n d) (W : Arr2 o d) (B2 : Arr2 1 o) (B1 : Arr1 o)
    (hB : ∀ q : Fin o, B2 (ix2 (0 : Fin 1) q) = B1 (ix1 q)) : projK H W B2 = projR H W B1 := by
  funext j
  obtain ⟨r, q, rfl⟩ : ∃ (r : Fin n) (q : Fin o), j = ix2 r q := ⟨j 0, j 1, eq_ix2 j⟩
  rw [projK_ix2, projR_ix2, hB]

end Cert.Sage

end
-- ==== Proof.SpecRows.lean ====
/-
  Row locality of the layer and of the output projection: an output row is a function of the same row of the
  row-wise operands (aggregated sums, reciprocal counts, features; hidden rows) and of the weights. This is what
  lets a block of rows computed from blocks of rows be read as the same rows of the whole-array function.
-/
import proofs.«121646_j80023830659433_1_alg».proof.Proof.Spec

noncomputable section

namespace Cert.Sage

open Idealize.ShloMosaic Idealize.ShloMosaic.ValueIdx

variable {n n' d h o : Nat}

/-- A row of a layer depends only on the same row of its three row-wise operands. -/
theorem layerK_rows (A : Arr2 n d) (S : Arr2 n 1) (X : Arr2 n d) (Wl : Arr2 h d) (B : Arr2 1 h) (Wr : Arr2 h d)
    (A' : Arr2 n' d) (S' : Arr2 n' 1) (X' : Arr2 n' d) (Wl' : Arr2 h d) (B' : Arr2 1 h) (Wr' : Arr2 h d)
    (y : (⟨2, ![n, h]⟩ : Shape).Idx) (i : (⟨2, ![n', h]⟩ : Shape).Idx)
    (hA : ∀ k, A (ix2 (y 0 : Fin n) k) = A' (ix2 (i 0 : Fin n') k))
    (hS : S (ix2 (y 0 : Fin n) (0 : Fin 1)) = S' (ix2 (i 0 : Fin n') (0 : Fin 1)))
    (hX : ∀ k, X (ix2 (y 0 : Fin n) k) = X' (ix2 (i 0 : Fin n') k))
    (hWl : Wl = Wl') (hB : B = B') (hWr : Wr = Wr') (h1 : (y 1 : Fin h) = (i 1 : Fin h)) :
    layerK A S X Wl B Wr y = layerK A' S' X' Wl' B' Wr' i := by
  subst hWl hB hWr
  unfold layerK
  simp only [hA, hS, hX, h1]

/-- A row of the output projection depends only on the same hidden row. -/
theorem projK_rows (H : Arr2 n d) (W : Arr2 o d) (B : Arr2 1 o) (H' : Arr2 n' d) (W' : Arr2 o d) (B' : Arr2 1 o)
    (y : (⟨2, ![n, o]⟩ : Shape).Idx) (i : (⟨2, ![n', o]⟩ : Shape).Idx)
    (hH : ∀ k, H (ix2 (y 0 : Fin n) k) = H' (ix2 (i 0 : Fin n') k))
    (hW : W = W') (hB : B = B') (h1 : (y 1 : Fin o) = (i 1 : Fin o)) :
    projK H W B y = projK H' W' B' i := by
  subst hW hB
  unfold projK
  simp only [hH, h1]

end Cert.Sage

end
-- ==== Proof.Pay.lean ====
/-
  The arithmetic of the two kernel bodies, read entry by entry on the extended reals.

  On the extended reals a narrowing of the float format is the identity, a cast to the same shape is the identity,
  a matrix transposed reads its operand at the swapped index, and a matrix product into the zero accumulator is the
  plain sum of products over the contracted axis. Pushing an index (row p, channel q) through the first body leaves
    max ((Σₖ (aₖ · s) · wlₖ  +  Σₖ xₖ · wrₖ)  +  b) 0
  with a, x row p of the two feature blocks, s the entry of the scale column in row p, wl, wr row q of the two weight
  matrices and b entry q of the bias row: the layer in the kernel's arrangement. The second body computes the same
  layer over 64 input channels and feeds it, as the left operand, to one more product with the projection matrix, plus
  the projection's bias row.
-/
import proofs.«121646_j80023830659433_1_alg».proof.Proof.Gen.KernelIdeal.Skeleton
import proofs.«121646_j80023830659433_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Sage Idealize.ShloMosaic Idealize.ShloMosaic.ValueIdx

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a `[10000, 32]` block with a transposed `[64, 32]` matrix -/

theorem mm32_l0 (i : S10000x64.Idx) (c : dot_S10000x32_S32x64_S10000x64_1_0_0_1_n_n.contr.Idx) :
    (dot_S10000x32_S32x64_S10000x64_1_0_0_1_n_n.lhsIdx i c 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem mm32_l1 (i : S10000x64.Idx) (c : dot_S10000x32_S32x64_S10000x64_1_0_0_1_n_n.contr.Idx) :
    (dot_S10000x32_S32x64_S10000x64_1_0_0_1_n_n.lhsIdx i c 1).val = (c ⟨0, by decide⟩).val :=
  dot_S10000x32_S32x64_S10000x64_1_0_0_1_n_n.lhsIdx_val_of_single rfl i c
theorem mm32_r0 (i : S10000x64.Idx) (c : dot_S10000x32_S32x64_S10000x64_1_0_0_1_n_n.contr.Idx) :
    (dot_S10000x32_S32x64_S10000x64_1_0_0_1_n_n.rhsIdx i c 0).val = (c ⟨0, by decide⟩).val :=
  dot_S10000x32_S32x64_S10000x64_1_0_0_1_n_n.rhsIdx_val_of_single rfl i c
theorem mm32_r1 (i : S10000x64.Idx) (c : dot_S10000x32_S32x64_S10000x64_1_0_0_1_n_n.contr.Idx) :
    (dot_S10000x32_S32x64_S10000x64_1_0_0_1_n_n.rhsIdx i c 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- Into the zero accumulator, the product of `A` with the transpose of `W` reads, at `(p, q)`, row `p` of `A` against row
    `q` of `W`. -/
theorem mm32_apply (A : FVec Ideal S10000x32 .bf16) (W : FVec Ideal S64x32 .bf16) (p : Fin 10000) (q : Fin 64) :
    matmul dot_S10000x32_S32x64_S10000x64_1_0_0_1_n_n none A (transpose S32x64 [1, 0] W transposes_S64x32_p1_0_S32x64) (constant S10000x64 .f32 0x00000000#32) (ix2 p q)
      = ∑ k : Fin 32, A (ix2 p k) * W (ix2 q k) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact mm32_l0 _ _
    | ⟨1, _⟩ => exact (mm32_l1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (mm32_r0 _ _).trans hk
    | ⟨1, _⟩ => exact mm32_r1 _ _)
  rw [el, er, transpose_ix2_apply]

/-! ## The product of a `[10000, 64]` block with a transposed `[64, 64]` matrix -/

theorem mm64_l0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm64_l1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
theorem mm64_r0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
theorem mm64_r1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into the zero accumulator, the product of `A` with the transpose of `W` reads, at `(p, q)`, row `p` of `A` against row
    `q` of `W`. -/
theorem mm64_apply (A : FVec Ideal S10000x64 .bf16) (W : FVec Ideal S64x64 .bf16) (p : Fin 10000) (q : Fin 64) :
    matmul dot_S10000x64_S64x64_S10000x64_1_0_0_1_n_n none A (transpose S64x64 [1, 0] W transposes_S64x64_p1_0_S64x64) (constant S10000x64 .f32 0x00000000#32) (ix2 p q)
      = ∑ k : Fin 64, A (ix2 p k) * W (ix2 q k) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact mm64_l0 _ _
    | ⟨1, _⟩ => exact (mm64_l1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (mm64_r0 _ _).trans hk
    | ⟨1, _⟩ => exact mm64_r1 _ _)
  rw [el, er, transpose_ix2_apply]

/-! ## The product of a `[10000, 64]` block with a transposed `[5, 64]` matrix -/

theorem mm5_l0 (i : S10000x5.Idx) (c : dot_S10000x64_S64x5_S10000x5_1_0_0_1_n_n.contr.Idx) :
    (dot_S10000x64_S64x5_S10000x5_1_0_0_1_n_n.lhsIdx i c 0).val = (i 0).val := by
  unfold DotDims.lhsIdx
  rw [dif_neg (show ¬(0 : Fin S10000x64.rank) ∈ dot_S10000x64_S64x5_S10000x5_1_0_0_1_n_n.lhsBatch by decide), dif_pos (show (0 : Fin S10000x64.rank) ∈ dot_S10000x64_S64x5_S10000x5_1_0_0_1_n_n.lhsNonContracting by decide)]
  rfl
theorem mm5_l1 (i : S10000x5.Idx) (c : dot_S10000x64_S64x5_S10000x5_1_0_0_1_n_n.contr.Idx) :
    (dot_S10000x64_S64x5_S10000x5_1_0_0_1_n_n.lhsIdx i c 1).val = (c ⟨0, by decide⟩).val :=
  dot_S10000x64_S64x5_S10000x5_1_0_0_1_n_n.lhsIdx_val_of_single rfl i c
theorem mm5_r0 (i : S10000x5.Idx) (c : dot_S10000x64_S64x5_S10000x5_1_0_0_1_n_n.contr.Idx) :
    (dot_S10000x64_S64x5_S10000x5_1_0_0_1_n_n.rhsIdx i c 0).val = (c ⟨0, by decide⟩).val :=
  dot_S10000x64_S64x5_S10000x5_1_0_0_1_n_n.rhsIdx_val_of_single rfl i c
theorem mm5_r1 (i : S10000x5.Idx) (c : dot_S10000x64_S64x5_S10000x5_1_0_0_1_n_n.contr.Idx) :
    (dot_S10000x64_S64x5_S10000x5_1_0_0_1_n_n.rhsIdx i c 1).val = (i 1).val := by
  unfold DotDims.rhsIdx
  rw [dif_neg (show ¬(1 : Fin S64x5.rank) ∈ dot_S10000x64_S64x5_S10000x5_1_0_0_1_n_n.rhsBatch by decide), dif_pos (show (1 : Fin S64x5.rank) ∈ dot_S10000x64_S64x5_S10000x5_1_0_0_1_n_n.rhsNonContracting by decide)]
  rfl

/-- Into the zero accumulator, the product of `A` with the transpose of `W` reads, at `(p, q)`, row `p` of `A` against row
    `q` of `W`. -/
theorem mm5_apply (A : FVec Ideal S10000x64 .bf16) (W : FVec Ideal S5x64 .bf16) (p : Fin 10000) (q : Fin 5) :
    matmul dot_S10000x64_S64x5_S10000x5_1_0_0_1_n_n none A (transpose S64x5 [1, 0] W transposes_S5x64_p1_0_S64x5) (constant S10000x5 .f32 0x00000000#32) (ix2 p q)
      = ∑ k : Fin 64, A (ix2 p k) * W (ix2 q k) := by
  simp only [matmul]
  rw [Ideal.matmul_constant_zero_apply, ← Equiv.sum_comp (contrEquiv1 dot_S10000x64_S64x5_S10000x5_1_0_0_1_n_n 64 rfl rfl).symm]
  refine Finset.sum_congr rfl fun k _ => ?_
  have hk := contrEquiv1_symm_val dot_S10000x64_S64x5_S10000x5_1_0_0_1_n_n 64 rfl rfl k
  have el : dot_S10000x64_S64x5_S10000x5_1_0_0_1_n_n.lhsIdx (ix2 p q) ((contrEquiv1 dot_S10000x64_S64x5_S10000x5_1_0_0_1_n_n 64 rfl rfl).symm k) = ix2 p k := funext fun a => Fin.ext (by
    match a with
    | ⟨0, _⟩ => exact mm5_l0 _ _
    | ⟨1, _⟩ => exact (mm5_l1 _ _).trans hk)
  have er : dot_S10000x64_S64x5_S10000x5_1_0_0_1_n_n.rhsIdx (ix2 p q) ((contrEquiv1 dot_S10000x64_S64x5_S10000x5_1_0_0_1_n_n 64 rfl rfl).symm k) = ix2 k q := funext fun a => Fin.ext (by
    match a with
    | ⟨0, _⟩ => exact (mm5_r0 _ _).trans hk
    | ⟨1, _⟩ => exact mm5_r1 _ _)
  rw [el, er, transpose_ix2_apply]

/-! ## The first body -/

/-- The first body's stored value is the layer in the kernel's arrangement over the loaded blocks. -/
theorem pay0_eq (v0 : Vec Ideal S10000x32 .f32) (v2 : Vec Ideal S10000x1 .f32) (v7 : Vec Ideal S10000x32 .f32)
    (v9 : Vec Ideal S64x32 .f32) (v11 : Vec Ideal S64x32 .f32) (v18 : Vec Ideal S1x64 .f32) :
    k0_pay1 (F := Ideal) v0 v2 v7 v9 v11 v18 = layerK v0 v2 v7 v9 v18 v11 := by
  funext j
  obtain ⟨p, q, rfl⟩ : ∃ (p : Fin 10000) (q : Fin 64), j = ix2 p q := ⟨j 0, j 1, eq_ix2 j⟩
  rw [layerK_ix2]
  unfold k0_pay1 denseK
  -- the rectifier, the two sums and the bias row, each at (p, q)
  rw [maximumf_apply, addf_apply, addf_apply, mm32_apply, mm32_apply, broadcast_apply, broadcastTo_1b_ab_apply,
    shapeCast_self, shapeCast_self, shapeCast_self]
  -- the narrowings are the identity; the scale column is read at row p
  simp only [truncf_apply, mulf_apply, broadcastTo_a1_ab_apply]
  rfl

/-! ## The second body -/

/-- The second body's stored value is the output projection of the layer over the loaded blocks. -/
theorem pay1_eq (v0 : Vec Ideal S10000x64 .f32) (v2 : Vec Ideal S10000x1 .f32) (v7 : Vec Ideal S10000x64 .f32)
    (v10 : Vec Ideal S64x64 .f32) (v12 : Vec Ideal S64x64 .f32) (v19 : Vec Ideal S1x64 .f32)
    (v26 : Vec Ideal S5x64 .f32) (v30 : Vec Ideal S1x5 .f32) :
    k1_pay1 (F := Ideal) v0 v2 v7 v10 v12 v19 v26 v30 = projK (layerK v0 v2 v7 v10 v19 v12) v26 v30 := by
  funext j
  obtain ⟨p, q, rfl⟩ : ∃ (p : Fin 10000) (q : Fin 5), j = ix2 p q := ⟨j 0, j 1, eq_ix2 j⟩
  rw [projK_ix2]
  unfold k1_pay1 proj
  -- the last product and the projection's bias row at (p, q)
  rw [addf_apply, mm5_apply, broadcastTo_1b_ab_apply, shapeCast_self v30]
  refine congrArg₂ (· + ·) (Finset.sum_congr rfl fun k _ => congrArg₂ (· * ·) ?_ rfl) rfl
  -- the hidden entry (p, k) is the layer's
  show _ = layerK v0 v2 v7 v10 v19 v12 (ix2 p k)
  rw [layerK_ix2]
  unfold denseK
  rw [truncf_apply, maximumf_apply, addf_apply, addf_apply, mm64_apply, mm64_apply, broadcast_apply,
    broadcastTo_1b_ab_apply, shapeCast_self, shapeCast_self, shapeCast_self, shapeCast_self]
  simp only [truncf_apply, mulf_apply, broadcastTo_a1_ab_apply]
  rfl

end Cert.KernelIdeal.Pay

end
-- ==== Proof.Blocks.lean ====
/-
  From blocks to arrays, for both regions, at ANY contents V of the buffers when the region is entered.
  Each region walks ten points; at point t it reads rows 10000·t … 10000·t + 9999 of its three row-wise operands
  and the whole of each weight and bias array, and writes back the same rows of its result. Since an output row of a
  layer (and of the output projection) is a function of the same rows of the row-wise operands, what point t writes
  back is those rows of ONE whole-array function; the ten blocks tile the 100000 rows, so the result array ends
  holding that function: the first region's the first layer over all rows, the second region's the output
  projection of the second layer over all rows.
-/
import proofs.«121646_j80023830659433_1_alg».proof.Proof.Gen.KernelIdeal.Frame
import proofs.«121646_j80023830659433_1_alg».proof.Proof.SpecRows
import proofs.«121646_j80023830659433_1_alg».proof.Proof.Pay
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The first region -/

/-- The printed index maps, decided over the grid: a row window's block index is the point, a weight window's is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t is rows 10000·t … of the aggregated neighbour sums. -/
theorem iblk0_0_apply (c : Dev nD) (t : Fin cfg0.N) (x : S10000x32.Idx) (k : S100000x32.Idx)
    (hk0 : (k 0).val = t.val * 10000 + (x 0).val) (hk1 : (k 1).val = (x 1).val) :
    (iblk0 V c 0 t : Vec Ideal S10000x32 .f32) x = (V c main_v22 : S100000x32.Idx → EReal) k := by
  obtain ⟨e0, e1, -⟩ := idx_facts0 t
  unfold iblk0
  rw [View.read_apply]
  show V c main_v22 _ = V c main_v22 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 32 + 1 * (x 1).val = (k 1).val; rw [e1, hk1]; omega

/-- Window 1's block at point t is rows 10000·t … of the reciprocal-count column. -/
theorem iblk0_1_apply (c : Dev nD) (t : Fin cfg0.N) (x : S10000x1.Idx) (k : S100000x1.Idx)
    (hk0 : (k 0).val = t.val * 10000 + (x 0).val) (hk1 : (k 1).val = (x 1).val) :
    (iblk0 V c 1 t : Vec Ideal S10000x1 .f32) x = (V c main_v12 : S100000x1.Idx → EReal) k := by
  obtain ⟨-, -, e0, e1, -⟩ := idx_facts0 t
  unfold iblk0
  rw [View.read_apply]
  show V c main_v12 _ = V c main_v12 _
  congr 1
  funext a
  apply Fin.ext
  match a with
  | ⟨0, _⟩ => show win0_1.index t (0 : Fin 2) * 10000 + 1 * (x 0).val = (k 0).val; rw [e0, hk0]; omega
  | ⟨1, _⟩ => show win0_1.index t (1 : Fin 2) * 1 + 1 * (x 1).val = (k 1).val; rw [e1, hk1]; omega

/-- Window 2's block at point t is rows 10000·t … of the node features. -/
theorem iblk0_2_apply (c : Dev nD) (t : Fin cfg0.N) (x : S10000x32.Idx) (k : S100000x32.Idx)
    (hk0 : (k 0).val = t.val * 10000 + (x 0).val) (hk1 : (k 1).val = (x 1).val) :
    (iblk0 V c 2 t : Vec Ideal S10000x32 .f32) x = (V c main_arg0 : S100000x32.Idx → EReal) k := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_2.index t (0 : Fin 2) * 10000 + 1 * (x 0).val = (k 0).val; rw [e0, hk0]; omega
  | ⟨1, _⟩ => show win0_2.index t (1 : Fin 2) * 32 + 1 * (x 1).val = (k 1).val; rw [e1, hk1]; omega

/-- The neighbour weight window holds its whole array at every point. -/
theorem iblk0_3_eq (c : Dev nD) (t : Fin cfg0.N) :
    (iblk0 V c 3 t : Vec Ideal S64x32 .f32) = (V c main_arg2 : S64x32.Idx → EReal) := by
  obtain ⟨-, -, -, -, -, -, e0, e1, -⟩ := idx_facts0 t
  funext x
  unfold iblk0
  rw [View.read_apply]
  show V c main_arg2 _ = V c main_arg2 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 32 + 1 * (x 1).val = (x 1).val; rw [e1]; omega

/-- The bias window holds its whole row at every point. -/
theorem iblk0_4_eq (c : Dev nD) (t : Fin cfg0.N) :
    (iblk0 V c 4 t : Vec Ideal S1x64 .f32) = (V c main_v23 : S1x64.Idx → EReal) := by
  obtain ⟨-, -, -, -, -, -, -, -, e0, e1, -⟩ := idx_facts0 t
  funext x
  unfold iblk0
  rw [View.read_apply]
  show V c main_v23 _ = V c main_v23 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- The self weight window holds its whole array at every point. -/
theorem iblk0_5_eq (c : Dev nD) (t : Fin cfg0.N) :
    (iblk0 V c 5 t : Vec Ideal S64x32 .f32) = (V c main_arg4 : S64x32.Idx → EReal) := by
  obtain ⟨-, -, -, -, -, -, -, -, -, -, e0, e1, -⟩ := idx_facts0 t
  funext x
  unfold iblk0
  rw [View.read_apply]
  show V c main_arg4 _ = V c main_arg4 _
  congr 1
  funext a
  apply Fin.ext
  match a with
  | ⟨0, _⟩ => show win0_5.index t (0 : Fin 2) * 64 + 1 * (x 0).val = (x 0).val; rw [e0]; omega
  | ⟨1, _⟩ => show win0_5.index t (1 : Fin 2) * 32 + 1 * (x 1).val = (x 1).val; rw [e1]; omega

/-- The first layer over all rows, of the arrays as the first region finds them. -/
abbrev hidden (c : Dev nD) : Arr2 100000 64 :=
  layerK (V c main_v22 : Arr2 100000 32) (V c main_v12 : Arr2 100000 1) (V c main_arg0 : Arr2 100000 32)
    (V c main_arg2 : Arr2 64 32) (V c main_v23 : Arr2 1 64) (V c main_arg4 : Arr2 64 32)

/-- What point t writes back is rows 10000·t … of the first layer over all rows. -/
theorem flushed0_eq (c : Dev nD) (t : Fin cfg0.N) :
    (dat0 V c).flushed 6 t = ((cfg0.win 6).blk t).view.read (Elt Ideal) (hidden V c) := by
  show (cfg0.win 6).cut (grid0.coords t) ((dat0 V c).after 6 t) = _
  rw [after0_6]
  unfold out0_6
  rw [View.canon_unit_zero hz]
  simp only [View.ld_unit_zero (S := S10000x32) hz, View.ld_unit_zero (S := S10000x1) hz, View.ld_unit_zero (S := S64x32) hz,
    View.ld_unit_zero (S := S1x64) hz]
  rw [Pay.pay0_eq, iblk0_3_eq, iblk0_4_eq, iblk0_5_eq]
  obtain ⟨-, -, -, -, -, -, -, -, -, -, -, -, e0, e1⟩ := idx_facts0 t
  funext y
  rw [View.read_apply]
  have h0 : ((((cfg0.win 6).blk t).view.emb y) 0).val = t.val * 10000 + (y 0).val := by
    show win0_6.index t (0 : Fin 2) * 10000 + 1 * (y 0).val = _; rw [e0]; omega
  have h1 : ((((cfg0.win 6).blk t).view.emb y) 1).val = (y 1).val := by
    show win0_6.index t (1 : Fin 2) * 64 + 1 * (y 1).val = _; rw [e1]; omega
  refine layerK_rows _ _ _ _ _ _ _ _ _ _ _ _ y _ (fun k => ?_) ?_ (fun k => ?_) rfl rfl rfl (Fin.ext h1.symm)
  · exact iblk0_0_apply V c t _ _ h0 rfl
  · exact iblk0_1_apply V c t _ _ h0 rfl
  · exact iblk0_2_apply V c t _ _ h0 rfl

/-- An index of the hidden array is in point t's block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v24).slice (win0_6.rect t)).set ↔ _
  rw [View.set_slice_whole, Rect.mem_set_unit]
  exact Iff.rfl

/-- Every row is in the block of the point numbered by the row divided by the block height. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_6 _, ?_⟩
  rw [mem_blk0]
  obtain ⟨-, -, -, -, -, -, -, -, -, -, -, -, e0, e1⟩ := idx_facts0 ⟨(i 0).val / 10000, by rw [hN]; omega⟩
  intro a
  match a with
  | ⟨0, _⟩ => show win0_6.index _ (0 : Fin 2) * 10000 ≤ (i 0).val ∧ (i 0).val < win0_6.index _ (0 : Fin 2) * 10000 + 10000; rw [e0]; show (i 0).val / 10000 * 10000 ≤ (i 0).val ∧ (i 0).val < (i 0).val / 10000 * 10000 + 10000; omega
  | ⟨1, _⟩ => show win0_6.index _ (1 : Fin 2) * 64 ≤ (i 1).val ∧ (i 1).val < win0_6.index _ (1 : Fin 2) * 64 + 64; rw [e1]; omega

/-- The hidden array after the first region: the first layer over all rows. -/
theorem final0 (c : Dev nD) : (dat0 V c).arrAt 6 cfg0.N = hidden V c :=
  (dat0 V c).arrAt_eq_of_cover 6 (hidden V c) (fun t _ => flushed0_eq V c t) cover0

/-! ## The second region -/

/-- The printed index maps, decided over the grid: a row window's block index is the point, a weight window's is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Window 0's block at point t is rows 10000·t … of the aggregated hidden sums. -/
theorem iblk1_0_apply (c : Dev nD) (t : Fin cfg1.N) (x : S10000x64.Idx) (k : S100000x64.Idx)
    (hk0 : (k 0).val = t.val * 10000 + (x 0).val) (hk1 : (k 1).val = (x 1).val) :
    (iblk1 V c 0 t : Vec Ideal S10000x64 .f32) x = (V c main_v34 : S100000x64.Idx → EReal) k := by
  obtain ⟨e0, e1, -⟩ := idx_facts1 t
  unfold iblk1
  rw [View.read_apply]
  show V c main_v34 _ = V c main_v34 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- Window 1's block at point t is rows 10000·t … of the reciprocal-count column. -/
theorem iblk1_1_apply (c : Dev nD) (t : Fin cfg1.N) (x : S10000x1.Idx) (k : S100000x1.Idx)
    (hk0 : (k 0).val = t.val * 10000 + (x 0).val) (hk1 : (k 1).val = (x 1).val) :
    (iblk1 V c 1 t : Vec Ideal S10000x1 .f32) x = (V c main_v12 : S100000x1.Idx → EReal) k := by
  obtain ⟨-, -, e0, e1, -⟩ := idx_facts1 t
  unfold iblk1
  rw [View.read_apply]
  show V c main_v12 _ = V c main_v12 _
  congr 1
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 1 + 1 * (x 1).val = (k 1).val; rw [e1, hk1]; omega

/-- Window 2's block at point t is rows 10000·t … of the hidden array. -/
theorem iblk1_2_apply (c : Dev nD) (t : Fin cfg1.N) (x : S10000x64.Idx) (k : S100000x64.Idx)
    (hk0 : (k 0).val = t.val * 10000 + (x 0).val) (hk1 : (k 1).val = (x 1).val) :
    (iblk1 V c 2 t : Vec Ideal S10000x64 .f32) x = (V c main_v24 : S100000x64.Idx → EReal) k := by
  obtain ⟨-, -, -, -, e0, e1, -⟩ := idx_facts1 t
  unfold iblk1
  rw [View.read_apply]
  show V c main_v24 _ = V c main_v24 _
  congr 1
  funext a
  apply Fin.ext
  match a with
  | ⟨0, _⟩ => show win1_2.index t (0 : Fin 2) * 10000 + 1 * (x 0).val = (k 0).val; rw [e0, hk0]; omega
  | ⟨1, _⟩ => show win1_2.index t (1 : Fin 2) * 64 + 1 * (x 1).val = (k 1).val; rw [e1, hk1]; omega

/-- The neighbour weight window holds its whole array at every point. -/
theorem iblk1_3_eq (c : Dev nD) (t : Fin cfg1.N) :
    (iblk1 V c 3 t : Vec Ideal S64x64 .f32) = (V c main_arg5 : S64x64.Idx → EReal) := by
  obtain ⟨-, -, -, -, -, -, e0, e1, -⟩ := idx_facts1 t
  funext x
  unfold iblk1
  rw [View.read_apply]
  show V c main_arg5 _ = V c main_arg5 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- The bias window holds its whole row at every point. -/
theorem iblk1_4_eq (c : Dev nD) (t : Fin cfg1.N) :
    (iblk1 V c 4 t : Vec Ideal S1x64 .f32) = (V c main_v35 : S1x64.Idx → EReal) := by
  obtain ⟨-, -, -, -, -, -, -, -, e0, e1, -⟩ := idx_facts1 t
  funext x
  unfold iblk1
  rw [View.read_apply]
  show V c main_v35 _ = V c main_v35 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The self weight window holds its whole array at every point. -/
theorem iblk1_5_eq (c : Dev nD) (t : Fin cfg1.N) :
    (iblk1 V c 5 t : Vec Ideal S64x64 .f32) = (V c main_arg7 : S64x64.Idx → EReal) := by
  obtain ⟨-, -, -, -, -, -, -, -, -, -, e0, e1, -⟩ := idx_facts1 t
  funext x
  unfold iblk1
  rw [View.read_apply]
  show V c main_arg7 _ = V c main_arg7 _
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 64 + 1 * (x 1).val = (x 1).val; rw [e1]; omega

/-- The projection weight window holds its whole array at every point. -/
theorem iblk1_6_eq (c : Dev nD) (t : Fin cfg1.N) :
    (iblk1 V c 6 t : Vec Ideal S5x64 .f32) = (V c main_arg8 : S5x64.Idx → EReal) := by
  obtain ⟨-, -, -, -, -, -, -, -, -, -, -, -, e0, e1, -⟩ := idx_facts1 t
  funext x
  unfold iblk1
  rw [View.read_apply]
  show V c main_arg8 _ = V c main_arg8 _
  congr 1
  funext a
  apply Fin.ext
  match a with
  | ⟨0, _⟩ => show win1_6.index t (0 : Fin 2) * 5 + 1 * (x 0).val = (x 0).val; rw [e0]; omega
  | ⟨1, _⟩ => show win1_6.index t (1 : Fin 2) * 64 + 1 * (x 1).val = (x 1).val; rw [e1]; omega

/-- The projection bias window holds its whole row at every point. -/
theorem iblk1_7_eq (c : Dev nD) (t : Fin cfg1.N) :
    (iblk1 V c 7 t : Vec Ideal S1x5 .f32) = (V c main_v36 : S1x5.Idx → EReal) := by
  obtain ⟨-, -, -, -, -, -, -, -, -, -, -, -, -, -, e0, e1, -⟩ := idx_facts1 t
  funext x
  unfold iblk1
  rw [View.read_apply]
  show V c main_v36 _ = V c main_v36 _
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 5 + 1 * (x 1).val = (x 1).val; rw [e1]; omega

/-- The output projection of the second layer over all rows, of the arrays as the second region finds them. -/
abbrev output (c : Dev nD) : Arr2 100000 5 :=
  projK (layerK (V c main_v34 : Arr2 100000 64) (V c main_v12 : Arr2 100000 1) (V c main_v24 : Arr2 100000 64)
    (V c main_arg5 : Arr2 64 64) (V c main_v35 : Arr2 1 64) (V c main_arg7 : Arr2 64 64))
    (V c main_arg8 : Arr2 5 64) (V c main_v36 : Arr2 1 5)

/-- What point t writes back is rows 10000·t … of the projected second layer over all rows. -/
theorem flushed1_eq (c : Dev nD) (t : Fin cfg1.N) :
    (dat1 V c).flushed 8 t = ((cfg1.win 8).blk t).view.read (Elt Ideal) (output V c) := by
  show (cfg1.win 8).cut (grid1.coords t) ((dat1 V c).after 8 t) = _
  rw [after1_8]
  unfold out1_8
  rw [View.canon_unit_zero hz]
  simp only [View.ld_unit_zero (S := S10000x64) hz, View.ld_unit_zero (S := S10000x1) hz, View.ld_unit_zero (S := S64x64) hz,
    View.ld_unit_zero (S := S1x64) hz, View.ld_unit_zero (S := S5x64) hz, View.ld_unit_zero (S := S1x5) hz]
  rw [Pay.pay1_eq, iblk1_3_eq, iblk1_4_eq, iblk1_5_eq, iblk1_6_eq, iblk1_7_eq]
  obtain ⟨-, -, -, -, -, -, -, -, -, -, -, -, -, -, -, -, e0, e1⟩ := idx_facts1 t
  funext y
  rw [View.read_apply]
  have h0 : ((((cfg1.win 8).blk t).view.emb y) 0).val = t.val * 10000 + (y 0).val := by
    show win1_8.index t (0 : Fin 2) * 10000 + 1 * (y 0).val = _; rw [e0]; omega
  have h1 : ((((cfg1.win 8).blk t).view.emb y) 1).val = (y 1).val := by
    show win1_8.index t (1 : Fin 2) * 5 + 1 * (y 1).val = _; rw [e1]; omega
  refine projK_rows _ _ _ _ _ _ y _ (fun k => ?_) rfl rfl (Fin.ext h1.symm)
  refine layerK_rows _ _ _ _ _ _ _ _ _ _ _ _ _ _ (fun k' => ?_) ?_ (fun k' => ?_) rfl rfl rfl rfl
  · exact iblk1_0_apply V c t _ _ h0 rfl
  · exact iblk1_1_apply V c t _ _ h0 rfl
  · exact iblk1_2_apply V c t _ _ h0 rfl

/-- An index of the result array is in point t's block iff each coordinate is in the block's range on its axis. -/
theorem mem_blk1 (t : Fin cfg1.N) (i : S100000x5.Idx) :
    i ∈ ((cfg1.win 8).blk t).view.set ↔ ∀ a : Fin 2, win1_8.index t a * S10000x5.size a ≤ (i a).val ∧ (i a).val < win1_8.index t a * S10000x5.size a + S10000x5.size a := by
  show i ∈ ((View.whole main_v37).slice (win1_8.rect t)).set ↔ _
  rw [View.set_slice_whole, Rect.mem_set_unit]
  exact Iff.rfl

/-- Every row is in the block of the point numbered by the row divided by the block height. -/
theorem cover1 (i : S100000x5.Idx) : ∃ t : Fin cfg1.N, (cfg1.win 8).flush t = true ∧ i ∈ ((cfg1.win 8).blk t).view.set := by
  have hi0 : (i 0).val < 100000 := (i 0).isLt
  have hi1 : (i 1).val < 5 := (i 1).isLt
  have hN : cfg1.N = 10 := N_1
  refine ⟨⟨(i 0).val / 10000, by rw [hN]; omega⟩, flush1_8 _, ?_⟩
  rw [mem_blk1]
  obtain ⟨-, -, -, -, -, -, -, -, -, -, -, -, -, -, -, -, e0, e1⟩ := idx_facts1 ⟨(i 0).val / 10000, by rw [hN]; omega⟩
  intro a
  match a with
  | ⟨0, _⟩ => show win1_8.index _ (0 : Fin 2) * 10000 ≤ (i 0).val ∧ (i 0).val < win1_8.index _ (0 : Fin 2) * 10000 + 10000; rw [e0]; show (i 0).val / 10000 * 10000 ≤ (i 0).val ∧ (i 0).val < (i 0).val / 10000 * 10000 + 10000; omega
  | ⟨1, _⟩ => show win1_8.index _ (1 : Fin 2) * 5 ≤ (i 1).val ∧ (i 1).val < win1_8.index _ (1 : Fin 2) * 5 + 5; rw [e1]; omega

/-- The result array after the second region: the output projection of the second layer over all rows. -/
theorem final1 (c : Dev nD) : (dat1 V c).arrAt 8 cfg1.N = output V c :=
  (dat1 V c).arrAt_eq_of_cover 8 (output V c) (fun t _ => flushed1_eq V c t) cover1

end Cert.KernelIdeal.Blocks

end
-- ==== Proof.HostK.lean ====
/-
  The host operations around the two regions of the idealized kernel program, read as values.
  Before the first region the program slices the edge list into its source row and its target row, counts the
  edges into each target node (a scatter-add of ones), takes the reciprocal of the count floored at one as a
  column, gathers the feature rows by source node (a negative index wrapped by the node count) and scatter-adds
  them by target node, and reshapes the first bias to a row. Between the regions it gathers and scatter-adds the
  hidden rows in the same way and reshapes the two remaining biases to rows. The gather and the scatter-add are
  never opened: each aggregated array is a named function of the array it aggregates and of the two index rows.
-/
import proofs.«121646_j80023830659433_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.HostK

open Cert.KernelIdeal Cert.KernelIdeal.Gen

/-- The edge list: a row of source nodes over a row of target nodes. -/
abbrev Edges : Type := (⟨S2x1600000, .i32⟩ : BufTy).Contents (Elt Ideal)
/-- One row of node numbers, one per edge. -/
abbrev NodeRow : Type := (⟨S1600000, .i32⟩ : BufTy).Contents (Elt Ideal)

/-- The source node of every edge. -/
def srcRow (e : Edges) : NodeRow :=
  shapeCast _ (extractStridedSlice S1x1600000 ![0, 0] e slices_S2x1600000_S1x1600000_0_0) shapeCasts_S1x1600000_S1600000
/-- The target node of every edge. -/
def dstRow (e : Edges) : NodeRow :=
  shapeCast _ (extractStridedSlice S1x1600000 ![1, 0] e slices_S2x1600000_S1x1600000_1_0) shapeCasts_S1x1600000_S1600000

/-- The gather's index column: each source node, a negative one wrapped by the node count. -/
def srcIdx (v1 : NodeRow) : (⟨S1600000x1, .i32⟩ : BufTy).Contents (Elt Ideal) :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)
/-- The scatter's index column: each target node. -/
def dstIdx (v3 : NodeRow) : (⟨S1600000x1, .i32⟩ : BufTy).Contents (Elt Ideal) :=
  broadcastInDim S1600000x1 ![0] bcast_S1600000_S1600000x1_0 v3

/-- The number of edges into each node: ones scatter-added by target node onto zeros. -/
def cntK (v3 : NodeRow) : FVec Ideal S100000 .f32 :=
  Host.scatterAdd (F := Ideal) scatter_S100000_S1600000x1_S1600000_n_0_0_1
    (broadcastInDim S100000 ![] bcast_S_S100000 (constant (F := Ideal) S_ .f32 0x00000000#32)) (dstIdx v3)
    (broadcastInDim S1600000 ![] bcast_S_S1600000 (constant (F := Ideal) S_ .f32 0x3F800000#32))

/-- The reciprocal of the count floored at one, as a column. -/
def invK (v3 : NodeRow) : FVec Ideal S100000x1 .f32 :=
  shapeCast _ (Host.divf (F := Ideal) (broadcastInDim S100000 ![] bcast_S_S100000 (constant (F := Ideal) S_ .f32 0x3F800000#32))
    (maximumf (cntK v3) (broadcastInDim S100000 ![] bcast_S_S100000 (constant (F := Ideal) S_ .f32 0x3F800000#32)))) shapeCasts_S100000_S100000x1

/-- The aggregation of a 32-channel array: its rows gathered by source node, scatter-added by target node onto zeros. -/
def aggK32 (X : FVec Ideal S100000x32 .f32) (v1 v3 : NodeRow) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32)) (dstIdx v3)
    (Host.gather gather_S100000x32_S1600000x1_S1600000x32_1_0_n_n_0_1_132 X (srcIdx v1))

/-- The aggregation of a 64-channel array, in the same way. -/
def aggK64 (H : FVec Ideal S100000x64 .f32) (v1 v3 : NodeRow) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstIdx v3)
    (Host.gather gather_S100000x64_S1600000x1_S1600000x64_1_0_n_n_0_1_164 H (srcIdx v1))

variable (W : Valuation τ sig (Elt Ideal))

/-! ## The operations before the first region, from any contents -/

theorem pre_v1 : after (hostOps0 (F := Ideal)) W (Proc.devRef .tc main_v1) = srcRow (W (Proc.devRef .tc main_arg1)) := by
  after_results; rfl
theorem pre_v3 : after (hostOps0 (F := Ideal)) W (Proc.devRef .tc main_v3) = dstRow (W (Proc.devRef .tc main_arg1)) := by
  after_results; rfl
theorem pre_v12 : after (hostOps0 (F := Ideal)) W (Proc.devRef .tc main_v12) = invK (dstRow (W (Proc.devRef .tc main_arg1))) := by
  after_results; rfl
theorem pre_v22 : after (hostOps0 (F := Ideal)) W (Proc.devRef .tc main_v22)
    = aggK32 (W (Proc.devRef .tc main_arg0)) (srcRow (W (Proc.devRef .tc main_arg1))) (dstRow (W (Proc.devRef .tc main_arg1))) := by
  after_results_simp; rfl
theorem pre_v23 : after (hostOps0 (F := Ideal)) W (Proc.devRef .tc main_v23)
    = shapeCast S1x64 (W (Proc.devRef .tc main_arg3)) shapeCasts_S64_S1x64 := by
  after_results; rfl

theorem pre_arg0 : after (hostOps0 (F := Ideal)) W (Proc.devRef .tc main_arg0) = W (Proc.devRef .tc main_arg0) := by
  after_results_simp
theorem pre_arg1 : after (hostOps0 (F := Ideal)) W (Proc.devRef .tc main_arg1) = W (Proc.devRef .tc main_arg1) := by
  after_results_simp
theorem pre_arg2 : after (hostOps0 (F := Ideal)) W (Proc.devRef .tc main_arg2) = W (Proc.devRef .tc main_arg2) := by
  after_results_simp
theorem pre_arg4 : after (hostOps0 (F := Ideal)) W (Proc.devRef .tc main_arg4) = W (Proc.devRef .tc main_arg4) := by
  after_results_simp
theorem pre_arg3 : after (hostOps0 (F := Ideal)) W (Proc.devRef .tc main_arg3) = W (Proc.devRef .tc main_arg3) := by
  after_results_simp
theorem pre_arg5 : after (hostOps0 (F := Ideal)) W (Proc.devRef .tc main_arg5) = W (Proc.devRef .tc main_arg5) := by
  after_results_simp
theorem pre_arg7 : after (hostOps0 (F := Ideal)) W (Proc.devRef .tc main_arg7) = W (Proc.devRef .tc main_arg7) := by
  after_results_simp
theorem pre_arg8 : after (hostOps0 (F := Ideal)) W (Proc.devRef .tc main_arg8) = W (Proc.devRef .tc main_arg8) := by
  after_results_simp
theorem pre_arg6 : after (hostOps0 (F := Ideal)) W (Proc.devRef .tc main_arg6) = W (Proc.devRef .tc main_arg6) := by
  after_results_simp
theorem pre_arg9 : after (hostOps0 (F := Ideal)) W (Proc.devRef .tc main_arg9) = W (Proc.devRef .tc main_arg9) := by
  after_results_simp

/-! ## The operations between the regions, from any contents -/

theorem mid_v34 : after (hostOps1 (F := Ideal)) W (Proc.devRef .tc main_v34)
    = aggK64 (W (Proc.devRef .tc main_v24)) (W (Proc.devRef .tc main_v1)) (W (Proc.devRef .tc main_v3)) := by
  after_results_simp; rfl
theorem mid_v35 : after (hostOps1 (F := Ideal)) W (Proc.devRef .tc main_v35)
    = shapeCast S1x64 (W (Proc.devRef .tc main_arg6)) shapeCasts_S64_S1x64 := by
  after_results_simp; rfl
theorem mid_v36 : after (hostOps1 (F := Ideal)) W (Proc.devRef .tc main_v36)
    = shapeCast S1x5 (W (Proc.devRef .tc main_arg9)) shapeCasts_S5_S1x5 := by
  after_results_simp; rfl
theorem mid_v12 : after (hostOps1 (F := Ideal)) W (Proc.devRef .tc main_v12) = W (Proc.devRef .tc main_v12) := by
  after_results_simp
theorem mid_v24 : after (hostOps1 (F := Ideal)) W (Proc.devRef .tc main_v24) = W (Proc.devRef .tc main_v24) := by
  after_results_simp
theorem mid_arg5 : after (hostOps1 (F := Ideal)) W (Proc.devRef .tc main_arg5) = W (Proc.devRef .tc main_arg5) := by
  after_results_simp
theorem mid_arg7 : after (hostOps1 (F := Ideal)) W (Proc.devRef .tc main_arg7) = W (Proc.devRef .tc main_arg7) := by
  after_results_simp
theorem mid_arg8 : after (hostOps1 (F := Ideal)) W (Proc.devRef .tc main_arg8) = W (Proc.devRef .tc main_arg8) := by
  after_results_simp

end Cert.KernelIdeal.HostK

end
-- ==== Proof.KValue.lean ====
/-
  The value of the idealized kernel program's result array, as one function of the argument arrays.
  The second region's write-backs leave the output projection of the second layer over all rows, of the arrays that
  region finds; those are the aggregation of the hidden array, the reciprocal-count column, the hidden array itself
  — what the first region's write-backs left: the first layer over all rows of the arrays IT found — and the
  weights and biases as launched. Reading each buffer back through the host operations and the regions gives the
  result as the composition: aggregate, first layer, aggregate, second layer, projection.
-/
import proofs.«121646_j80023830659433_1_alg».proof.Proof.KRun
import proofs.«121646_j80023830659433_1_alg».proof.Proof.Blocks
import proofs.«121646_j80023830659433_1_alg».proof.Proof.HostK

set_option maxRecDepth 16384

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen Cert.KernelIdeal.HostK Cert.KernelIdeal.Blocks Cert.Sage

/-- The first hidden array: the first layer of the aggregated features. -/
def hid (x : FVec Ideal S100000x32 .f32) (e : Edges) (w1l : FVec Ideal S64x32 .f32) (b1 : FVec Ideal S64 .f32)
    (w1r : FVec Ideal S64x32 .f32) : Arr2 100000 64 :=
  layerK (aggK32 x (srcRow e) (dstRow e)) (invK (dstRow e)) x w1l (shapeCast S1x64 b1 shapeCasts_S64_S1x64) w1r

/-- The result: the output projection of the second layer of the aggregated hidden array. -/
def out (x : FVec Ideal S100000x32 .f32) (e : Edges) (w1l : FVec Ideal S64x32 .f32) (b1 : FVec Ideal S64 .f32)
    (w1r : FVec Ideal S64x32 .f32) (w2l : FVec Ideal S64x64 .f32) (b2 : FVec Ideal S64 .f32) (w2r : FVec Ideal S64x64 .f32)
    (wlin : FVec Ideal S5x64 .f32) (blin : FVec Ideal S5 .f32) : Arr2 100000 5 :=
  projK (layerK (aggK64 (hid x e w1l b1 w1r) (srcRow e) (dstRow e)) (invK (dstRow e)) (hid x e w1l b1 w1r) w2l
    (shapeCast S1x64 b2 shapeCasts_S64_S1x64) w2r) wlin (shapeCast S1x5 blin shapeCasts_S5_S1x5)

variable (m : (ℓ : Loc nD τ sig) → Buf (Elt Ideal) ℓ) (ρ : Dev nD → PrngReg)

/-! ## What the first region finds, and leaves -/

theorem in0_v22 (c : Dev nD) : V1 m ρ c main_v22
    = aggK32 (m ((c : Thread nD τ).loc main_arg0)) (srcRow (m ((c : Thread nD τ).loc main_arg1))) (dstRow (m ((c : Thread nD τ).loc main_arg1))) :=
  pre_v22 (W0 m ρ c)
theorem in0_v12 (c : Dev nD) : V1 m ρ c main_v12 = invK (dstRow (m ((c : Thread nD τ).loc main_arg1))) := pre_v12 (W0 m ρ c)
theorem in0_arg0 (c : Dev nD) : V1 m ρ c main_arg0 = m ((c : Thread nD τ).loc main_arg0) := pre_arg0 (W0 m ρ c)
theorem in0_arg2 (c : Dev nD) : V1 m ρ c main_arg2 = m ((c : Thread nD τ).loc main_arg2) := pre_arg2 (W0 m ρ c)
theorem in0_arg4 (c : Dev nD) : V1 m ρ c main_arg4 = m ((c : Thread nD τ).loc main_arg4) := pre_arg4 (W0 m ρ c)
theorem in0_v23 (c : Dev nD) : V1 m ρ c main_v23 = shapeCast S1x64 (m ((c : Thread nD τ).loc main_arg3)) shapeCasts_S64_S1x64 :=
  pre_v23 (W0 m ρ c)

/-- The hidden array after the first region is the first layer of the aggregated features. -/
theorem hidden_eq (c : Dev nD) : W2 m ρ c (Proc.devRef .tc main_v24)
    = hid (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 6).trans ((final0 (V1 m ρ) c).trans ?_)
  show layerK (V1 m ρ c main_v22) (V1 m ρ c main_v12) (V1 m ρ c main_arg0) (V1 m ρ c main_arg2) (V1 m ρ c main_v23) (V1 m ρ c main_arg4) = _
  rw [in0_v22, in0_v12, in0_arg0, in0_arg2, in0_arg4, in0_v23]
  rfl

/-! ## What the second region finds -/

theorem W2_v1 (c : Dev nD) : W2 m ρ c (Proc.devRef .tc main_v1) = srcRow (m ((c : Thread nD τ).loc main_arg1)) :=
  (W2_of_ne m ρ c main_v1 (by decide)).trans (pre_v1 (W0 m ρ c))
theorem W2_v3 (c : Dev nD) : W2 m ρ c (Proc.devRef .tc main_v3) = dstRow (m ((c : Thread nD τ).loc main_arg1)) :=
  (W2_of_ne m ρ c main_v3 (by decide)).trans (pre_v3 (W0 m ρ c))
theorem W2_v12 (c : Dev nD) : W2 m ρ c (Proc.devRef .tc main_v12) = invK (dstRow (m ((c : Thread nD τ).loc main_arg1))) :=
  (W2_arr m ρ c 1).trans ((((dat0 (V1 m ρ) c).arrAt_in 1 rfl _).trans (A_eq0 (V1 m ρ) c 1)).trans (in0_v12 m ρ c))
theorem W2_arg5 (c : Dev nD) : W2 m ρ c (Proc.devRef .tc main_arg5) = m ((c : Thread nD τ).loc main_arg5) :=
  (W2_of_ne m ρ c main_arg5 (by decide)).trans (pre_arg5 (W0 m ρ c))
theorem W2_arg6 (c : Dev nD) : W2 m ρ c (Proc.devRef .tc main_arg6) = m ((c : Thread nD τ).loc main_arg6) :=
  (W2_of_ne m ρ c main_arg6 (by decide)).trans (pre_arg6 (W0 m ρ c))
theorem W2_arg7 (c : Dev nD) : W2 m ρ c (Proc.devRef .tc main_arg7) = m ((c : Thread nD τ).loc main_arg7) :=
  (W2_of_ne m ρ c main_arg7 (by decide)).trans (pre_arg7 (W0 m ρ c))
theorem W2_arg8 (c : Dev nD) : W2 m ρ c (Proc.devRef .tc main_arg8) = m ((c : Thread nD τ).loc main_arg8) :=
  (W2_of_ne m ρ c main_arg8 (by decide)).trans (pre_arg8 (W0 m ρ c))
theorem W2_arg9 (c : Dev nD) : W2 m ρ c (Proc.devRef .tc main_arg9) = m ((c : Thread nD τ).loc main_arg9) :=
  (W2_of_ne m ρ c main_arg9 (by decide)).trans (pre_arg9 (W0 m ρ c))

theorem in1_v34 (c : Dev nD) : V3 m ρ c main_v34
    = aggK64 (hid (m ((c : Thread nD τ).loc main_arg0)) (m ((c : Thread nD τ).loc main_arg1)) (m ((c : Thread nD τ).loc main_arg2))
        (m ((c : Thread nD τ).loc main_arg3)) (m ((c : Thread nD τ).loc main_arg4)))
      (srcRow (m ((c : Thread nD τ).loc main_arg1))) (dstRow (m ((c : Thread nD τ).loc main_arg1))) := by
  refine (mid_v34 (W2 m ρ c)).trans ?_
  rw [hidden_eq, W2_v1, W2_v3]
theorem in1_v12 (c : Dev nD) : V3 m ρ c main_v12 = invK (dstRow (m ((c : Thread nD τ).loc main_arg1))) :=
  (mid_v12 (W2 m ρ c)).trans (W2_v12 m ρ c)
theorem in1_v24 (c : Dev nD) : V3 m ρ c main_v24
    = hid (m ((c : Thread nD τ).loc main_arg0)) (m ((c : Thread nD τ).loc main_arg1)) (m ((c : Thread nD τ).loc main_arg2))
        (m ((c : Thread nD τ).loc main_arg3)) (m ((c : Thread nD τ).loc main_arg4)) :=
  (mid_v24 (W2 m ρ c)).trans (hidden_eq m ρ c)
theorem in1_arg5 (c : Dev nD) : V3 m ρ c main_arg5 = m ((c : Thread nD τ).loc main_arg5) := (mid_arg5 (W2 m ρ c)).trans (W2_arg5 m ρ c)
theorem in1_arg7 (c : Dev nD) : V3 m ρ c main_arg7 = m ((c : Thread nD τ).loc main_arg7) := (mid_arg7 (W2 m ρ c)).trans (W2_arg7 m ρ c)
theorem in1_arg8 (c : Dev nD) : V3 m ρ c main_arg8 = m ((c : Thread nD τ).loc main_arg8) := (mid_arg8 (W2 m ρ c)).trans (W2_arg8 m ρ c)
theorem in1_v35 (c : Dev nD) : V3 m ρ c main_v35 = shapeCast S1x64 (m ((c : Thread nD τ).loc main_arg6)) shapeCasts_S64_S1x64 := by
  refine (mid_v35 (W2 m ρ c)).trans ?_
  rw [W2_arg6]
theorem in1_v36 (c : Dev nD) : V3 m ρ c main_v36 = shapeCast S1x5 (m ((c : Thread nD τ).loc main_arg9)) shapeCasts_S5_S1x5 := by
  refine (mid_v36 (W2 m ρ c)).trans ?_
  rw [W2_arg9]

/-- The result's buffer at the last boundary holds `out` of the argument arrays. -/
theorem result_eq (c : Dev nD) : W4 m ρ c (Proc.devRef .tc main_v37)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W4_arr m ρ c 8).trans ((final1 (V3 m ρ) c).trans ?_)
  show projK (layerK (V3 m ρ c main_v34) (V3 m ρ c main_v12) (V3 m ρ c main_v24) (V3 m ρ c main_arg5) (V3 m ρ c main_v35) (V3 m ρ c main_arg7))
    (V3 m ρ c main_arg8) (V3 m ρ c main_v36) = _
  rw [in1_v34, in1_v12, in1_v24, in1_arg5, in1_v35, in1_arg7, in1_arg8, in1_v36]
  rfl

/-- The run with the result at `out` of the arguments, the arguments unchanged. -/
theorem run : θ_run defs (onTc (τ := τ) (main (F := Ideal))) ⟨m, fun _ => 0, ρ⟩ (fun r => ∀ c : Dev nD,
      r.2.mem ((c.tc : Thread nD τ).loc main_v37)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Cert.KernelIdeal.Hand.run_value (F := Ideal) m ρ)

end Cert.KernelIdeal.KValue

end
-- ==== Proof.RefValue.lean ====
/-
  The reference program, read as mathematics: a two-layer mean-aggregation graph network followed by a linear
  projection. Each layer divides the scatter-added neighbour rows by the floored neighbour count, multiplies by the
  left weight, adds the bias, adds the features times the right weight, and rectifies. The gather and scatter-add
  that build the aggregated rows and the counts are kept as opaque arrays (`agg32`, `agg64`, `cnt`); every other
  operation is read entry by entry and matched with the shared layer and projection of the specification.
-/
import proofs.«121646_j80023830659433_1_alg».proof.Proof.Gen.ReferenceIdeal.Read
import proofs.«121646_j80023830659433_1_alg».proof.Proof.Spec

noncomputable section

namespace Cert.ReferenceIdeal.RefValue

open Cert.ReferenceIdeal Cert.ReferenceIdeal.Read Cert.Sage Idealize.ShloMosaic Idealize.ShloMosaic.ValueIdx

/-- the neighbour counts -/
def cnt (x1 : (⟨S2x1600000, .i32⟩ : BufTy).Contents (Elt Ideal)) : FVec Ideal S100000 .f32 := val_main_v17 (F := Ideal) x1

/-- first-layer aggregation of any feature array: gather rows by source node, scatter-add them by target node -/
def agg32 (X : FVec Ideal S100000x32 .f32) (x1 : (⟨S2x1600000, .i32⟩ : BufTy).Contents (Elt Ideal)) : FVec Ideal S100000x32 .f32 :=
  Host.scatterAdd scatter_S100000x32_S1600000x1_S1600000x32_1_0_0_1 (val_main_v11 (F := Ideal)) (val_main_v12 (F := Ideal) x1)
    (Host.gather gather_S100000x32_S1600000x1_S1600000x32_1_0_n_n_0_1_132 X (val_main_v9 (F := Ideal) x1))

/-- second-layer aggregation of any hidden array: the same gather and scatter-add at width 64 -/
def agg64 (H : FVec Ideal S100000x64 .f32) (x1 : (⟨S2x1600000, .i32⟩ : BufTy).Contents (Elt Ideal)) : FVec Ideal S100000x64 .f32 :=
  Host.scatterAdd scatter_S100000x64_S1600000x1_S1600000x64_1_0_0_1 (val_main_v39 (F := Ideal)) (val_main_v40 (F := Ideal) x1)
    (Host.gather gather_S100000x64_S1600000x1_S1600000x64_1_0_n_n_0_1_164 H (val_main_v37 (F := Ideal) x1))

/-- The first layer's scatter-add stage is the aggregation of the input features. -/
theorem v13_eq (x0 : (⟨S100000x32, .f32⟩ : BufTy).Contents (Elt Ideal)) (x1 : (⟨S2x1600000, .i32⟩ : BufTy).Contents (Elt Ideal)) : val_main_v13 (F := Ideal) x0 x1 = agg32 x0 x1 := rfl

/-- The second layer recomputes the counts by the same operations: it is the same array. -/
theorem v45_eq (x1 : (⟨S2x1600000, .i32⟩ : BufTy).Contents (Elt Ideal)) : val_main_v45 (F := Ideal) x1 = cnt x1 := rfl

/-- The second layer's scatter-add stage is the aggregation of the first hidden array. -/
theorem v41_eq (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) :
    val_main_v41 (F := Ideal) x0 x1 x2 x3 x4 = agg64 (val_main_v31 (F := Ideal) x0 x1 x2 x3 x4) x1 := rfl

/-! ## First layer, entry by entry -/

/-- The mean: an aggregated entry divided by its row's floored count. -/
theorem v22_ix2 (x0 : (⟨S100000x32, .f32⟩ : BufTy).Contents (Elt Ideal)) (x1 : (⟨S2x1600000, .i32⟩ : BufTy).Contents (Elt Ideal)) (r : Fin 100000) (k : Fin 32) :
    val_main_v22 (F := Ideal) x0 x1 (ix2 r k) = Ideal.div (agg32 x0 x1 (ix2 r k)) (max (cnt x1 (ix1 r)) One) := by
  rw [val_main_v22_apply, val_main_v21_apply, val_main_v20_apply, val_main_v19_apply, val_main_v18_apply, val_main_cst_3_apply]
  have e : idx_main_v20 (idx_main_v21 (ix2 r k)) = ix1 r := funext fun a => Fin.ext (by match a with | ⟨0, _⟩ => rfl)
  rw [e, v13_eq]
  rfl

/-- The transposed left weight read back in its stored [out, in] arrangement. -/
theorem v23_ix2 (x2 : (⟨S64x32, .f32⟩ : BufTy).Contents (Elt Ideal)) (k : Fin 32) (q : Fin 64) : val_main_v23 (F := Ideal) x2 (ix2 k q) = x2 (ix2 q k) := by
  rw [val_main_v23_apply]
  exact congrArg x2 (funext fun a => Fin.ext (by match a with | ⟨0, _⟩ => rfl | ⟨1, _⟩ => rfl))

theorem v28_ix2 (x4 : (⟨S64x32, .f32⟩ : BufTy).Contents (Elt Ideal)) (k : Fin 32) (q : Fin 64) : val_main_v28 (F := Ideal) x4 (ix2 k q) = x4 (ix2 q k) := by
  rw [val_main_v28_apply]
  exact congrArg x4 (funext fun a => Fin.ext (by match a with | ⟨0, _⟩ => rfl | ⟨1, _⟩ => rfl))

/-- The bias broadcast over rows reads the bias vector at the channel. -/
theorem v26_ix2 (x3 : (⟨S64, .f32⟩ : BufTy).Contents (Elt Ideal)) (r : Fin 100000) (q : Fin 64) : val_main_v26 (F := Ideal) x3 (ix2 r q) = x3 (ix1 q) := by
  rw [val_main_v26_apply, val_main_v25_apply]
  exact congrArg x3 (funext fun a => Fin.ext (by match a with | ⟨0, _⟩ => rfl))

theorem v24_ix2 (x0 : (⟨S100000x32, .f32⟩ : BufTy).Contents (Elt Ideal)) (x1 : (⟨S2x1600000, .i32⟩ : BufTy).Contents (Elt Ideal)) (x2 : (⟨S64x32, .f32⟩ : BufTy).Contents (Elt Ideal)) (r : Fin 100000) (q : Fin 64) :
    val_main_v24 (F := Ideal) x0 x1 x2 (ix2 r q)
      = ∑ k : Fin 32, Ideal.div (agg32 x0 x1 (ix2 r k)) (max (cnt x1 (ix1 r)) One) * x2 (ix2 q k) := by
  rw [val_main_v24_apply]
  refine Finset.sum_congr rfl fun k _ => ?_
  have el : lidx_main_v24 (ix2 r q) k = ix2 r k := funext fun a => Fin.ext (by match a with | ⟨0, _⟩ => rfl | ⟨1, _⟩ => rfl)
  have er : ridx_main_v24 (ix2 r q) k = ix2 k q := funext fun a => Fin.ext (by match a with | ⟨0, _⟩ => rfl | ⟨1, _⟩ => rfl)
  rw [el, er, v22_ix2, v23_ix2]

theorem v29_ix2 (x0 : (⟨S100000x32, .f32⟩ : BufTy).Contents (Elt Ideal)) (x4 : (⟨S64x32, .f32⟩ : BufTy).Contents (Elt Ideal)) (r : Fin 100000) (q : Fin 64) :
    val_main_v29 (F := Ideal) x0 x4 (ix2 r q) = ∑ k : Fin 32, x0 (ix2 r k) * x4 (ix2 q k) := by
  rw [val_main_v29_apply]
  refine Finset.sum_congr rfl fun k _ => ?_
  have el : lidx_main_v29 (ix2 r q) k = ix2 r k := funext fun a => Fin.ext (by match a with | ⟨0, _⟩ => rfl | ⟨1, _⟩ => rfl)
  have er : ridx_main_v29 (ix2 r q) k = ix2 k q := funext fun a => Fin.ext (by match a with | ⟨0, _⟩ => rfl | ⟨1, _⟩ => rfl)
  rw [el, er, v28_ix2]

/-- The first hidden array is the reference's layer of the aggregated input features. -/
theorem hidden1_eq (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) :
    val_main_v31 (F := Ideal) x0 x1 x2 x3 x4 = layerR (agg32 x0 x1) (fun i => max (cnt x1 i) One) x0 x2 x3 x4 := by
  funext j
  obtain ⟨r, q, rfl⟩ : ∃ (r : Fin 100000) (q : Fin 64), j = ix2 r q := ⟨j 0, j 1, eq_ix2 j⟩
  rw [layerR_ix2]
  unfold denseR
  rw [val_main_v31_apply, val_main_v30_apply, val_main_v27_apply, v24_ix2, v29_ix2, v26_ix2,
    val_main_call0_v0_apply, val_main_call0_cst_apply]
  rfl

/-! ## Second layer, entry by entry -/

theorem v50_ix2 (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) (r : Fin 100000) (k : Fin 64) :
    val_main_v50 (F := Ideal) x0 x1 x2 x3 x4 (ix2 r k)
      = Ideal.div (agg64 (val_main_v31 (F := Ideal) x0 x1 x2 x3 x4) x1 (ix2 r k)) (max (cnt x1 (ix1 r)) One) := by
  rw [val_main_v50_apply, val_main_v49_apply, val_main_v48_apply, val_main_v47_apply, val_main_v46_apply, val_main_cst_9_apply]
  have e : idx_main_v48 (idx_main_v49 (ix2 r k)) = ix1 r := funext fun a => Fin.ext (by match a with | ⟨0, _⟩ => rfl)
  rw [e, v41_eq, v45_eq]
  rfl

theorem v51_ix2 (x5 : (⟨S64x64, .f32⟩ : BufTy).Contents (Elt Ideal)) (k : Fin 64) (q : Fin 64) : val_main_v51 (F := Ideal) x5 (ix2 k q) = x5 (ix2 q k) := by
  rw [val_main_v51_apply]
  exact congrArg x5 (funext fun a => Fin.ext (by match a with | ⟨0, _⟩ => rfl | ⟨1, _⟩ => rfl))

theorem v56_ix2 (x7 : (⟨S64x64, .f32⟩ : BufTy).Contents (Elt Ideal)) (k : Fin 64) (q : Fin 64) : val_main_v56 (F := Ideal) x7 (ix2 k q) = x7 (ix2 q k) := by
  rw [val_main_v56_apply]
  exact congrArg x7 (funext fun a => Fin.ext (by match a with | ⟨0, _⟩ => rfl | ⟨1, _⟩ => rfl))

theorem v54_ix2 (x6 : (⟨S64, .f32⟩ : BufTy).Contents (Elt Ideal)) (r : Fin 100000) (q : Fin 64) : val_main_v54 (F := Ideal) x6 (ix2 r q) = x6 (ix1 q) := by
  rw [val_main_v54_apply, val_main_v53_apply]
  exact congrArg x6 (funext fun a => Fin.ext (by match a with | ⟨0, _⟩ => rfl))

theorem v52_ix2 (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) (x5 : (⟨S64x64, .f32⟩ : BufTy).Contents (Elt Ideal)) (r : Fin 100000) (q : Fin 64) :
    val_main_v52 (F := Ideal) x0 x1 x2 x3 x4 x5 (ix2 r q)
      = ∑ k : Fin 64, Ideal.div (agg64 (val_main_v31 (F := Ideal) x0 x1 x2 x3 x4) x1 (ix2 r k)) (max (cnt x1 (ix1 r)) One) * x5 (ix2 q k) := by
  rw [val_main_v52_apply]
  refine Finset.sum_congr rfl fun k _ => ?_
  have el : lidx_main_v52 (ix2 r q) k = ix2 r k := funext fun a => Fin.ext (by match a with | ⟨0, _⟩ => rfl | ⟨1, _⟩ => rfl)
  have er : ridx_main_v52 (ix2 r q) k = ix2 k q := funext fun a => Fin.ext (by match a with | ⟨0, _⟩ => rfl | ⟨1, _⟩ => rfl)
  rw [el, er, v50_ix2, v51_ix2]

theorem v57_ix2 (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) (x7 : (⟨S64x64, .f32⟩ : BufTy).Contents (Elt Ideal)) (r : Fin 100000) (q : Fin 64) :
    val_main_v57 (F := Ideal) x0 x1 x2 x3 x4 x7 (ix2 r q)
      = ∑ k : Fin 64, val_main_v31 (F := Ideal) x0 x1 x2 x3 x4 (ix2 r k) * x7 (ix2 q k) := by
  rw [val_main_v57_apply]
  refine Finset.sum_congr rfl fun k _ => ?_
  have el : lidx_main_v57 (ix2 r q) k = ix2 r k := funext fun a => Fin.ext (by match a with | ⟨0, _⟩ => rfl | ⟨1, _⟩ => rfl)
  have er : ridx_main_v57 (ix2 r q) k = ix2 k q := funext fun a => Fin.ext (by match a with | ⟨0, _⟩ => rfl | ⟨1, _⟩ => rfl)
  rw [el, er, v56_ix2]

/-- The second hidden array is the reference's layer of the aggregated first hidden array. -/
theorem hidden2_eq (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v59 (F := Ideal) x0 x1 x2 x3 x4 x5 x6 x7
      = layerR (agg64 (val_main_v31 (F := Ideal) x0 x1 x2 x3 x4) x1) (fun i => max (cnt x1 i) One)
          (val_main_v31 (F := Ideal) x0 x1 x2 x3 x4) x5 x6 x7 := by
  funext j
  obtain ⟨r, q, rfl⟩ : ∃ (r : Fin 100000) (q : Fin 64), j = ix2 r q := ⟨j 0, j 1, eq_ix2 j⟩
  rw [layerR_ix2]
  unfold denseR
  rw [val_main_v59_apply, val_main_v58_apply, val_main_v55_apply, v52_ix2, v57_ix2, v54_ix2,
    val_main_call1_v0_apply, val_main_call1_cst_apply]
  rfl

/-! ## The output projection -/

theorem v60_ix2 (x8 : (⟨S5x64, .f32⟩ : BufTy).Contents (Elt Ideal)) (k : Fin 64) (q : Fin 5) : val_main_v60 (F := Ideal) x8 (ix2 k q) = x8 (ix2 q k) := by
  rw [val_main_v60_apply]
  exact congrArg x8 (funext fun a => Fin.ext (by match a with | ⟨0, _⟩ => rfl | ⟨1, _⟩ => rfl))

theorem v63_ix2 (x9 : (⟨S5, .f32⟩ : BufTy).Contents (Elt Ideal)) (r : Fin 100000) (q : Fin 5) : val_main_v63 (F := Ideal) x9 (ix2 r q) = x9 (ix1 q) := by
  rw [val_main_v63_apply, val_main_v62_apply]
  exact congrArg x9 (funext fun a => Fin.ext (by match a with | ⟨0, _⟩ => rfl))

theorem v61_ix2 (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S5x64, .f32⟩ : BufTy).Contents (Elt Ideal)) (r : Fin 100000) (q : Fin 5) :
    val_main_v61 (F := Ideal) x0 x1 x2 x3 x4 x5 x6 x7 x8 (ix2 r q)
      = ∑ k : Fin 64, val_main_v59 (F := Ideal) x0 x1 x2 x3 x4 x5 x6 x7 (ix2 r k) * x8 (ix2 q k) := by
  rw [val_main_v61_apply]
  refine Finset.sum_congr rfl fun k _ => ?_
  have el : lidx_main_v61 (ix2 r q) k = ix2 r k := funext fun a => Fin.ext (by match a with | ⟨0, _⟩ => rfl | ⟨1, _⟩ => rfl)
  have er : ridx_main_v61 (ix2 r q) k = ix2 k q := funext fun a => Fin.ext (by match a with | ⟨0, _⟩ => rfl | ⟨1, _⟩ => rfl)
  rw [el, er, v60_ix2]

/-- The reference's result: the projection of the second layer of the first layer. -/
theorem result_eq (x0 : (⟨S100000x32, .f32⟩ : BufTy).Contents (Elt Ideal)) (x1 : (⟨S2x1600000, .i32⟩ : BufTy).Contents (Elt Ideal)) (x2 : (⟨S64x32, .f32⟩ : BufTy).Contents (Elt Ideal)) (x3 : (⟨S64, .f32⟩ : BufTy).Contents (Elt Ideal)) (x4 : (⟨S64x32, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S5x64, .f32⟩ : BufTy).Contents (Elt Ideal)) (x9 : (⟨S5, .f32⟩ : BufTy).Contents (Elt Ideal)) :
    val_main_v64 (F := Ideal) x0 x1 x2 x3 x4 x5 x6 x7 x8 x9
      = projR (layerR (agg64 (val_main_v31 (F := Ideal) x0 x1 x2 x3 x4) x1) (fun i => max (cnt x1 i) One)
                 (val_main_v31 (F := Ideal) x0 x1 x2 x3 x4) x5 x6 x7) x8 x9 := by
  rw [← hidden2_eq]
  funext j
  obtain ⟨r, q, rfl⟩ : ∃ (r : Fin 100000) (q : Fin 5), j = ix2 r q := ⟨j 0, j 1, eq_ix2 j⟩
  rw [projR_ix2]
  unfold proj
  rw [val_main_v64_apply, v61_ix2, v63_ix2]
  rfl

end Cert.ReferenceIdeal.RefValue

end
-- ==== Proof.Bridge.lean ====
/-
  The two programs compute one function. The idealized kernel program's result is the output projection of the
  second layer of the aggregated first layer, in the kernel's arrangement of a layer; the idealized reference's is the
  same composition in the reference's arrangement. The aggregations and the edge counts are the same host
  operations in both programs (one term, never opened). The kernel's column of reciprocals holds 1 / max(count, 1)
  and its bias rows hold the bias vectors, so each layer of the kernel is the reference's layer by the law that
  a / c = a · (1 / c) for c = max(count, 1) ≠ 0 and that the three summands may be added in either order.
-/
import proofs.«121646_j80023830659433_1_alg».proof.Proof.KValue
import proofs.«121646_j80023830659433_1_alg».proof.Proof.RefValue
import Idealize.ShloMosaic.Lib.ValueLayout

noncomputable section

open Idealize.ShloMosaic Idealize.ShloMosaic.ValueIdx

namespace Cert.Bridge

open Cert.Sage Cert.KernelIdeal.HostK Cert.KernelIdeal.KValue
open Cert.ReferenceIdeal.RefValue (cnt agg32 agg64)

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The host's quotient of two arrays, entry by entry on the extended reals. -/
theorem hostDivf_apply {s : Shape} {φ : FTy} (a b : FVec Ideal s φ) (i : s.Idx) : Host.divf a b i = Ideal.div (a i) (b i) := rfl
/-- A scalar constant broadcast to any shape reads the constant's value at every index. -/
theorem bcast_const {s : Shape} (h : (⟨0, ![]⟩ : Shape).BroadcastsInDim s ![]) (w : BitVec 32) (i : s.Idx) :
    broadcastInDim s ![] h (constant (F := Ideal) ⟨0, ![]⟩ .f32 w) i = Ideal.ofBits .f32 w := rfl

/-- Both programs aggregate a 32-channel array by the same host operations. -/
theorem agg32_eq (X : FVec Ideal Cert.KernelIdeal.S100000x32 .f32) (e : Edges) :
    aggK32 X (srcRow e) (dstRow e) = agg32 X e := rfl
/-- Both programs aggregate a 64-channel array by the same host operations. -/
theorem agg64_eq (H : FVec Ideal Cert.KernelIdeal.S100000x64 .f32) (e : Edges) :
    aggK64 H (srcRow e) (dstRow e) = agg64 H e := rfl
/-- Both programs count the edges into each node by the same host operations. -/
theorem cnt_eq (e : Edges) : cntK (dstRow e) = cnt e := rfl

/-- The kernel's column holds the reciprocal of the floored count. -/
theorem inv_apply (e : Edges) (r : Fin 100000) :
    (invK (dstRow e) : Arr2 100000 1) (ix2 r (0 : Fin 1)) = Ideal.div One (max ((cnt e : Arr1 100000) (ix1 r)) One) := by
  unfold invK
  refine (shapeCast_a_a1_apply _ _ r 0).trans ?_
  rw [hostDivf_apply, maximumf_apply, bcast_const, cnt_eq]

/-- A bias row holds the bias vector. -/
theorem bias64_apply (b : FVec Ideal Cert.KernelIdeal.S64 .f32) (h : Cert.KernelIdeal.S64.ShapeCasts Cert.KernelIdeal.S1x64) (q : Fin 64) :
    (shapeCast Cert.KernelIdeal.S1x64 b h : Arr2 1 64) (ix2 (0 : Fin 1) q) = (b : Arr1 64) (ix1 q) :=
  shapeCast_a_1a_apply b h 0 q
theorem bias5_apply (b : FVec Ideal Cert.KernelIdeal.S5 .f32) (h : Cert.KernelIdeal.S5.ShapeCasts Cert.KernelIdeal.S1x5) (q : Fin 5) :
    (shapeCast Cert.KernelIdeal.S1x5 b h : Arr2 1 5) (ix2 (0 : Fin 1) q) = (b : Arr1 5) (ix1 q) :=
  shapeCast_a_1a_apply b h 0 q

/-- The kernel's first hidden array is the reference's. -/
theorem hid_eq (x0 : FVec Ideal Cert.KernelIdeal.S100000x32 .f32) (x1 : Edges) (x2 : FVec Ideal Cert.KernelIdeal.S64x32 .f32)
    (x3 : FVec Ideal Cert.KernelIdeal.S64 .f32) (x4 : FVec Ideal Cert.KernelIdeal.S64x32 .f32) :
    hid x0 x1 x2 x3 x4 = layerR (agg32 x0 x1) (fun i => max (cnt x1 i) One) x0 x2 x3 x4 := by
  unfold hid
  rw [agg32_eq]
  exact layerK_eq_layerR _ _ (cnt x1) _ _ _ x3 _ (inv_apply x1) (bias64_apply x3 _)

/-- The kernel's result is the reference's. -/
theorem out_eq (x0 : FVec Ideal Cert.KernelIdeal.S100000x32 .f32) (x1 : Edges) (x2 : FVec Ideal Cert.KernelIdeal.S64x32 .f32)
    (x3 : FVec Ideal Cert.KernelIdeal.S64 .f32) (x4 : FVec Ideal Cert.KernelIdeal.S64x32 .f32)
    (x5 : FVec Ideal Cert.KernelIdeal.S64x64 .f32) (x6 : FVec Ideal Cert.KernelIdeal.S64 .f32) (x7 : FVec Ideal Cert.KernelIdeal.S64x64 .f32)
    (x8 : FVec Ideal Cert.KernelIdeal.S5x64 .f32) (x9 : FVec Ideal Cert.KernelIdeal.S5 .f32) :
    out x0 x1 x2 x3 x4 x5 x6 x7 x8 x9
      = Cert.ReferenceIdeal.Read.val_main_v64 (F := Ideal) x0 x1 x2 x3 x4 x5 x6 x7 x8 x9 := by
  rw [Cert.ReferenceIdeal.RefValue.result_eq, Cert.ReferenceIdeal.RefValue.hidden1_eq]
  unfold out
  rw [hid_eq, agg64_eq]
  rw [layerK_eq_layerR _ _ (cnt x1) _ _ _ x6 _ (inv_apply x1) (bias64_apply x6 _)]
  exact projK_eq_projR _ _ _ x9 (bias5_apply x9 _)

end Cert.Bridge

end
-- ==== Proof.lean ====
/-
  The certificate of a two-layer mean-aggregation graph network: the kernel program (two tiled regions that do the
  dense work of each layer, among host gathers and scatter-adds) against its plain reference.

  The three frames: each program terminates without a fault and leaves its arguments as launched (the kernel
  programs' from their runs through the regions, the reference's from its run of host operations).
  The idealization rewrote nothing, so the kernel program's idealization is its own text read on the extended reals.
  The value claim: on the extended reals both programs end with the same result array. The kernel program's
  result is the output projection of the second layer of the aggregated first layer (its run, with each region's
  ten row blocks put together and each buffer read back through the host operations); the reference's is the same
  composition with each layer arranged as  ((agg / c) · Wlᵀ + b) + x · Wrᵀ  instead of  ((agg · (1/c)) · Wlᵀ + x · Wrᵀ) + b,
  c = max(count, 1). The two arrangements agree entry by entry: c is never zero, so dividing by c is multiplying by
  its inverse, which is also what 1 / c is, and addition of extended reals is commutative and associative. No
  finiteness of the inputs is used.
-/
import proofs.«121646_j80023830659433_1_alg».proof.Defs
import proofs.«121646_j80023830659433_1_alg».proof.Proof.Gen.Kernel
import proofs.«121646_j80023830659433_1_alg».proof.Proof.Gen.Kernel.Skeleton
import proofs.«121646_j80023830659433_1_alg».proof.Proof.Gen.Kernel.Launch
import proofs.«121646_j80023830659433_1_alg».proof.Proof.Gen.Kernel.Points
import proofs.«121646_j80023830659433_1_alg».proof.Proof.Gen.Kernel.Frame
import proofs.«121646_j80023830659433_1_alg».proof.Proof.Gen.KernelIdeal
import proofs.«121646_j80023830659433_1_alg».proof.Proof.Gen.KernelIdeal.Skeleton
import proofs.«121646_j80023830659433_1_alg».proof.Proof.Gen.KernelIdeal.Launch
import proofs.«121646_j80023830659433_1_alg».proof.Proof.Gen.KernelIdeal.Points
import proofs.«121646_j80023830659433_1_alg».proof.Proof.Gen.KernelIdeal.Frame
import proofs.«121646_j80023830659433_1_alg».proof.Proof.Gen.ReferenceIdeal
import proofs.«121646_j80023830659433_1_alg».proof.Proof.Gen.ReferenceIdeal.Run
import proofs.«121646_j80023830659433_1_alg».proof.Proof.Gen.ReferenceIdeal.Read
import proofs.«121646_j80023830659433_1_alg».proof.Proof.Gen.Pre_finite_inputs
import proofs.«121646_j80023830659433_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs, from memories agreeing on the arguments, end with the kernel program's result function
    of the arguments: the kernel program by its run, the reference because its composed term is that function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact (Cert.Bridge.out_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
